-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 128
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x32, .f32⟩
  | .hbm, ⟨118, _⟩ => ⟨S1700000x1, .f32⟩
  | .hbm, ⟨119, _⟩ => ⟨S1700000x32, .f32⟩
  | .hbm, ⟨120, _⟩ => ⟨S1700000x32, .f32⟩
  | .hbm, ⟨121, _⟩ => ⟨S_, .f32⟩
  | .hbm, ⟨122, _⟩ => ⟨S100000x32, .f32⟩
  | .hbm, ⟨123, _⟩ => ⟨S1700000x1, .i32⟩
  | .hbm, ⟨124, _⟩ => ⟨S100000x32, .f32⟩
  | .hbm, ⟨125, _⟩ => ⟨S1x32, .f32⟩
  | .hbm, ⟨126, _⟩ => ⟨S100000x32, .f32⟩
  | .hbm, ⟨127, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x32, .f32⟩
  | .hbm, ⟨118, _⟩ => ⟨S1700000x1, .f32⟩
  | .hbm, ⟨119, _⟩ => ⟨S1700000x32, .f32⟩
  | .hbm, ⟨120, _⟩ => ⟨S1700000x32, .f32⟩
  | .hbm, ⟨121, _⟩ => ⟨S_, .f32⟩
  | .hbm, ⟨122, _⟩ => ⟨S100000x32, .f32⟩
  | .hbm, ⟨123, _⟩ => ⟨S1700000x1, .i32⟩
  | .hbm, ⟨124, _⟩ => ⟨S100000x32, .f32⟩
  | .hbm, ⟨125, _⟩ => ⟨S1x32, .f32⟩
  | .hbm, ⟨126, _⟩ => ⟨S100000x32, .f32⟩
  | .hbm, ⟨127, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result named.

  The program is ten segments: a stretch of host operations, the first dense product's region, four stretches, the
  second dense product's region, three stretches. The buffers' contents at each boundary are a fold from the launch
  memory (a stretch applies its operations, a region replaces its output array by what its write-backs leave), and the
  last boundary's contents are what the final state holds. Read at the result buffer, this gives the result as the
  last fold at that buffer; read at an argument, the launch contents.
-/
import proofs.«121707_j44925357916599_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and every argument as launched. -/
theorem run : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Named

end
-- ==== Proof.BridgeA.lean ====
/-
  The first stretch of host operations, on both programs.

  Before the first dense product both programs build the two edge-index vectors of length 1700000: row 0 (sources),
  respectively row 1 (destinations), of the edge list followed by the self-loop indices 0 … 99999. Each vector depends
  on the contents before the stretch only through the edge list, and the stretch writes no argument.
-/
import proofs.«121707_j44925357916599_1_alg».proof.Proof.Gen.KernelIdeal.Frame
import proofs.«121707_j44925357916599_1_alg».proof.Proof.RefRun
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-- The source-index vector with its self-loops, from contents agreeing on the edge list: the same in both programs. -/
theorem first_sources (WK : Valuation τ sig (Elt Ideal)) (WR : Valuation Cert.ReferenceIdeal.τ Cert.ReferenceIdeal.sig (Elt Ideal))
    (h1 : WK (Proc.devRef .tc main_arg1) = WR (Proc.devRef .tc Cert.ReferenceIdeal.main_arg1)) :
    StableHlo.after (hostOps0 (F := Ideal)) WK (Proc.devRef .tc main_v3) = StableHlo.after ((Cert.ReferenceIdeal.ValueP.ops (F := Ideal)).take 7) WR (Proc.devRef .tc Cert.ReferenceIdeal.main_v3) := by
  simp only [Cert.ReferenceIdeal.ValueP.ops, List.drop_succ_cons, List.drop_zero, List.take_succ_cons, List.take_zero]
  after_results
  rw [h1]
  rfl

/-- The destination-index vector with its self-loops, likewise. -/
theorem first_destinations (WK : Valuation τ sig (Elt Ideal)) (WR : Valuation Cert.ReferenceIdeal.τ Cert.ReferenceIdeal.sig (Elt Ideal))
    (h1 : WK (Proc.devRef .tc main_arg1) = WR (Proc.devRef .tc Cert.ReferenceIdeal.main_arg1)) :
    StableHlo.after (hostOps0 (F := Ideal)) WK (Proc.devRef .tc main_v6) = StableHlo.after ((Cert.ReferenceIdeal.ValueP.ops (F := Ideal)).take 7) WR (Proc.devRef .tc Cert.ReferenceIdeal.main_v6) := by
  simp only [Cert.ReferenceIdeal.ValueP.ops, List.drop_succ_cons, List.drop_zero, List.take_succ_cons, List.take_zero]
  after_results
  rw [h1]
  rfl

/-- The kernel program's first stretch writes none of the float arguments. -/
theorem first_keeps_kernel (WK : Valuation τ sig (Elt Ideal)) :
    StableHlo.after (hostOps0 (F := Ideal)) WK (Proc.devRef .tc main_arg0) = WK (Proc.devRef .tc main_arg0)
    ∧ StableHlo.after (hostOps0 (F := Ideal)) WK (Proc.devRef .tc main_arg2) = WK (Proc.devRef .tc main_arg2)
    ∧ StableHlo.after (hostOps0 (F := Ideal)) WK (Proc.devRef .tc main_arg3) = WK (Proc.devRef .tc main_arg3)
    ∧ StableHlo.after (hostOps0 (F := Ideal)) WK (Proc.devRef .tc main_arg4) = WK (Proc.devRef .tc main_arg4)
    ∧ StableHlo.after (hostOps0 (F := Ideal)) WK (Proc.devRef .tc main_arg5) = WK (Proc.devRef .tc main_arg5) := by
  refine ⟨?_, ?_, ?_, ?_, ?_⟩ <;> after_results_simp

/-- Nor does the reference's. -/
theorem first_keeps_reference (WR : Valuation Cert.ReferenceIdeal.τ Cert.ReferenceIdeal.sig (Elt Ideal)) :
    StableHlo.after ((Cert.ReferenceIdeal.ValueP.ops (F := Ideal)).take 7) WR (Proc.devRef .tc Cert.ReferenceIdeal.main_arg0) = WR (Proc.devRef .tc Cert.ReferenceIdeal.main_arg0)
    ∧ StableHlo.after ((Cert.ReferenceIdeal.ValueP.ops (F := Ideal)).take 7) WR (Proc.devRef .tc Cert.ReferenceIdeal.main_arg2) = WR (Proc.devRef .tc Cert.ReferenceIdeal.main_arg2)
    ∧ StableHlo.after ((Cert.ReferenceIdeal.ValueP.ops (F := Ideal)).take 7) WR (Proc.devRef .tc Cert.ReferenceIdeal.main_arg3) = WR (Proc.devRef .tc Cert.ReferenceIdeal.main_arg3)
    ∧ StableHlo.after ((Cert.ReferenceIdeal.ValueP.ops (F := Ideal)).take 7) WR (Proc.devRef .tc Cert.ReferenceIdeal.main_arg4) = WR (Proc.devRef .tc Cert.ReferenceIdeal.main_arg4)
    ∧ StableHlo.after ((Cert.ReferenceIdeal.ValueP.ops (F := Ideal)).take 7) WR (Proc.devRef .tc Cert.ReferenceIdeal.main_arg5) = WR (Proc.devRef .tc Cert.ReferenceIdeal.main_arg5) := by
  refine ⟨?_, ?_, ?_, ?_, ?_⟩ <;> (simp only [Cert.ReferenceIdeal.ValueP.ops, List.drop_succ_cons, List.drop_zero, List.take_succ_cons, List.take_zero]; after_results_simp)

end Cert.Bridge

end
-- ==== Proof.BridgeB.lean ====
/-
  The middle stretch of host operations, on both programs.

  Between the two dense products both programs apply the same fifty-eight host operations: the symmetric normalisation
  of the first product along the edge list (degree count, reciprocal square root, two gathers, the row gather, the
  scaling, the scatter-add), the first bias and the rectifier. Its result, the second product's left operand, depends on
  the contents before the stretch only through the first product, the two edge-index vectors and the first bias; the
  index vectors, the second weight matrix and the second bias are written by no operation of the stretch.
-/
import proofs.«121707_j44925357916599_1_alg».proof.Proof.Gen.KernelIdeal.Frame
import proofs.«121707_j44925357916599_1_alg».proof.Proof.RefRun
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

set_option maxHeartbeats 4000000 in
/-- The rectified layer after the middle stretch, from contents agreeing on the first product, the two index vectors
    and the first bias: the same value in both programs. -/
theorem middle_result (WK : Valuation τ sig (Elt Ideal)) (WR : Valuation Cert.ReferenceIdeal.τ Cert.ReferenceIdeal.sig (Elt Ideal))
    (h7 : WK (Proc.devRef .tc main_v7) = WR (Proc.devRef .tc Cert.ReferenceIdeal.main_v7))
    (h3 : WK (Proc.devRef .tc main_v3) = WR (Proc.devRef .tc Cert.ReferenceIdeal.main_v3))
    (h6 : WK (Proc.devRef .tc main_v6) = WR (Proc.devRef .tc Cert.ReferenceIdeal.main_v6))
    (ha3 : WK (Proc.devRef .tc main_arg3) = WR (Proc.devRef .tc Cert.ReferenceIdeal.main_arg3)) :
    StableHlo.after (hostOps1_3 (F := Ideal)) (StableHlo.after hostOps1_2 (StableHlo.after hostOps1_1 (StableHlo.after hostOps1 WK))) (Proc.devRef .tc main_v49)
      = StableHlo.after (((Cert.ReferenceIdeal.ValueP.ops (F := Ideal)).drop 8).take 58) WR (Proc.devRef .tc Cert.ReferenceIdeal.main_v49) := by
  simp only [Cert.ReferenceIdeal.ValueP.ops, List.drop_succ_cons, List.drop_zero, List.take_succ_cons, List.take_zero]
  after_results_simp
  rw [h7, h3, h6, ha3]
  rfl

set_option maxHeartbeats 4000000 in
/-- The kernel program's middle stretch writes neither index vector, nor the second weight matrix, nor the second bias. -/
theorem middle_keeps_kernel (WK : Valuation τ sig (Elt Ideal)) :
    StableHlo.after (hostOps1_3 (F := Ideal)) (StableHlo.after hostOps1_2 (StableHlo.after hostOps1_1 (StableHlo.after hostOps1 WK))) (Proc.devRef .tc main_v3) = WK (Proc.devRef .tc main_v3)
    ∧ StableHlo.after (hostOps1_3 (F := Ideal)) (StableHlo.after hostOps1_2 (StableHlo.after hostOps1_1 (StableHlo.after hostOps1 WK))) (Proc.devRef .tc main_v6) = WK (Proc.devRef .tc main_v6)
    ∧ StableHlo.after (hostOps1_3 (F := Ideal)) (StableHlo.after hostOps1_2 (StableHlo.after hostOps1_1 (StableHlo.after hostOps1 WK))) (Proc.devRef .tc main_arg4) = WK (Proc.devRef .tc main_arg4)
    ∧ StableHlo.after (hostOps1_3 (F := Ideal)) (StableHlo.after hostOps1_2 (StableHlo.after hostOps1_1 (StableHlo.after hostOps1 WK))) (Proc.devRef .tc main_arg5) = WK (Proc.devRef .tc main_arg5) := by
  refine ⟨?_, ?_, ?_, ?_⟩ <;> after_results_simp

set_option maxHeartbeats 4000000 in
/-- Nor does the reference's. -/
theorem middle_keeps_reference (WR : Valuation Cert.ReferenceIdeal.τ Cert.ReferenceIdeal.sig (Elt Ideal)) :
    StableHlo.after (((Cert.ReferenceIdeal.ValueP.ops (F := Ideal)).drop 8).take 58) WR (Proc.devRef .tc Cert.ReferenceIdeal.main_v3) = WR (Proc.devRef .tc Cert.ReferenceIdeal.main_v3)
    ∧ StableHlo.after (((Cert.ReferenceIdeal.ValueP.ops (F := Ideal)).drop 8).take 58) WR (Proc.devRef .tc Cert.ReferenceIdeal.main_v6) = WR (Proc.devRef .tc Cert.ReferenceIdeal.main_v6)
    ∧ StableHlo.after (((Cert.ReferenceIdeal.ValueP.ops (F := Ideal)).drop 8).take 58) WR (Proc.devRef .tc Cert.ReferenceIdeal.main_arg4) = WR (Proc.devRef .tc Cert.ReferenceIdeal.main_arg4)
    ∧ StableHlo.after (((Cert.ReferenceIdeal.ValueP.ops (F := Ideal)).drop 8).take 58) WR (Proc.devRef .tc Cert.ReferenceIdeal.main_arg5) = WR (Proc.devRef .tc Cert.ReferenceIdeal.main_arg5) := by
  refine ⟨?_, ?_, ?_, ?_⟩ <;> (simp only [Cert.ReferenceIdeal.ValueP.ops, List.drop_succ_cons, List.drop_zero, List.take_succ_cons, List.take_zero]; after_results_simp)

end Cert.Bridge

end
-- ==== Proof.BridgeC.lean ====
/-
  The last stretch of host operations, on both programs.

  After the second dense product both programs apply the same fifty-five host operations: the in-degree count by a
  scatter-add of ones, its reciprocal square root where positive, the two gathers of it along the edge list, the gather
  of the product's rows, their scaling, the scatter-add into the destination rows and the bias. The result depends on
  the contents before the stretch only through four buffers — the product, the two edge-index vectors with their
  self-loops, and the bias — so from contents that agree on those four the two results are equal: each fold is
  rewritten to its composed term over those buffers, and the two terms are the same operations on equal leaves.
-/
import proofs.«121707_j44925357916599_1_alg».proof.Proof.Gen.KernelIdeal.Frame
import proofs.«121707_j44925357916599_1_alg».proof.Proof.RefRun
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

set_option maxHeartbeats 4000000 in
/-- The result buffer after the last stretch, from contents agreeing on the product, the two index vectors and the
    bias: the same value in both programs. -/
theorem tail_result (WK : Valuation τ sig (Elt Ideal)) (WR : Valuation Cert.ReferenceIdeal.τ Cert.ReferenceIdeal.sig (Elt Ideal))
    (h50 : WK (Proc.devRef .tc main_v50) = WR (Proc.devRef .tc Cert.ReferenceIdeal.main_v50))
    (h3 : WK (Proc.devRef .tc main_v3) = WR (Proc.devRef .tc Cert.ReferenceIdeal.main_v3))
    (h6 : WK (Proc.devRef .tc main_v6) = WR (Proc.devRef .tc Cert.ReferenceIdeal.main_v6))
    (h5 : WK (Proc.devRef .tc main_arg5) = WR (Proc.devRef .tc Cert.ReferenceIdeal.main_arg5)) :
    StableHlo.after (hostOps2_2 (F := Ideal)) (StableHlo.after hostOps2_1 (StableHlo.after hostOps2 WK)) (Proc.devRef .tc main_v91)
      = StableHlo.after ((Cert.ReferenceIdeal.ValueP.ops (F := Ideal)).drop 67) WR (Proc.devRef .tc Cert.ReferenceIdeal.main_v91) := by
  simp only [Cert.ReferenceIdeal.ValueP.ops, List.drop_succ_cons, List.drop_zero, List.take_succ_cons, List.take_zero]
  after_results_simp
  rw [h50, h3, h6, h5]
  rfl

end Cert.Bridge

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.Dense0.lean ====
/-
  The first dense product, entry by entry.

  The region multiplies a 100000 × 128 matrix x by a 128 × 64 matrix w, ten blocks of 10000 rows at a time. At grid
  point t the body holds rows 10000·t … 10000·t + 9999 of x and all of w, and leaves in the output's block their
  product into a zero accumulator; that block is then written back to the same rows of the result. Over the extended
  reals, narrowing an operand to the shorter float format is the identity, so entry (p, q) of the block is
  Σ k, x (10000·t + p, k) · w (k, q). Entry (r, q) of the result therefore depends on row r of x and column q of w
  alone, and it is the same sum whichever block holds row r: every point writes its block of ONE whole-array
  function. The ten blocks tile the rows, so the result array ends as that function, the whole product.
-/
import proofs.«121707_j44925357916599_1_alg».proof.Proof.Gen.KernelIdeal.Frame
import proofs.«121707_j44925357916599_1_alg».proof.Proof.LibDotRead
import Idealize.ShloMosaic.Lib.Pipeline.Value
import Idealize.ShloMosaic.Lib.ValueIdx

-- membership in a rectangle of these extents recurses once per coordinate of the long axis
set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, as the constant function. -/
theorem hz0 : (![0, 0] : Fin 2 → Nat) = fun _ => 0 := funext fun a => by fin_cases a <;> rfl

/-! ## The block product at an entry -/

/-- The product's dimension record is a plain one: rows × contraction times contraction × columns, no batch axis. The
    left operand is read at (output row, contraction coordinate), the right one at (contraction coordinate, output column). -/
theorem plain0 : Cert.DotRead.Plain (m := 10000) (n := 128) (p := 64) dot_S10000x128_S128x64_S10000x64_1_0_0_1_n_n where
  rank := by decide
  size := by decide
  lhs0 := fun i q => by
    unfold DotDims.lhsIdx
    rw [dif_neg (show ¬(0 : Fin _) ∈ dot_S10000x128_S128x64_S10000x64_1_0_0_1_n_n.lhsBatch by decide),
      dif_pos (show (0 : Fin _) ∈ dot_S10000x128_S128x64_S10000x64_1_0_0_1_n_n.lhsNonContracting by decide)]
    rfl
  lhs1 := fun i q => dot_S10000x128_S128x64_S10000x64_1_0_0_1_n_n.lhsIdx_val_of_single rfl i q
  rhs0 := fun i q => dot_S10000x128_S128x64_S10000x64_1_0_0_1_n_n.rhsIdx_val_of_single rfl i q
  rhs1 := fun i q => by
    unfold DotDims.rhsIdx
    rw [dif_neg (show ¬(1 : Fin _) ∈ dot_S10000x128_S128x64_S10000x64_1_0_0_1_n_n.rhsBatch by decide),
      dif_pos (show (1 : Fin _) ∈ dot_S10000x128_S128x64_S10000x64_1_0_0_1_n_n.rhsNonContracting by decide)]
    rfl

/-- Entry (p, q) of what the body stores, from the two blocks it loaded: Σ k, x0 (p, k) · x1 (k, q). The operands are
    narrowed to the shorter format first, which over the extended reals changes nothing, and the accumulator is zero. -/
theorem pay0 (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.DotRead.matmul_zero_apply dot_S10000x128_S128x64_S10000x64_1_0_0_1_n_n plain0 none _ _ p q

/-! ## The whole product -/

/-- The product of a 100000 × 128 matrix and a 128 × 64 matrix, entry by entry. -/
def G0 (x : S100000x128.Idx → EReal) (w : S128x64.Idx → EReal) : S100000x64.Idx → EReal :=
  fun i => ∑ k : Fin 128, x (ix2 (i 0) k) * w (ix2 k (i 1))

theorem G0_apply (x : S100000x128.Idx → EReal) (w : S128x64.Idx → EReal) (r : Fin 100000) (q : Fin 64) :
    G0 x w (ix2 r q) = ∑ k : Fin 128, x (ix2 r k) * w (ix2 k q) := rfl

/-- A block entry is an entry of the whole product as soon as the block's row is the matching row of x and the
    block's columns are the matching columns of w. -/
theorem point0 (x0 : Vec Ideal S10000x128 .f32) (x1 : Vec Ideal S128x64 .f32)
    (x : S100000x128.Idx → EReal) (w : S128x64.Idx → EReal) (i : S100000x64.Idx) (j : S10000x64.Idx)
    (h0 : ∀ k : Fin 128, x0 (ix2 (j 0) k) = x (ix2 (i 0) k))
    (h1 : ∀ k : Fin 128, x1 (ix2 k (j 1)) = w (ix2 k (i 1))) :
    k0_pay1 x0 x1 j = G0 x w i :=
  (congrArg (k0_pay1 x0 x1) (eq_ix2 j)).trans
    ((pay0 x0 x1 (j 0) (j 1)).trans (Finset.sum_congr rfl fun k _ => by rw [h0 k, h1 k]))

/-! ## Which rows a point holds -/

/-- The index maps over the ten points: the block of x moves with the output's block down the rows, the block of w
    stays at the origin, and the output's block at point t is block t of the rows. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The block of x at point t is rows 10000·t … 10000·t + 9999 of x: a block's coordinate sits in the array at the
    block index times the block's extent plus the coordinate inside the block. -/
theorem iblk0_0_apply (c : Dev nD) (t : Fin cfg0.N) (y : S10000x128.Idx) (i : S100000x128.Idx)
    (h0 : (i 0).val = 10000 * t.val + (y 0).val) (h1 : (i 1).val = (y 1).val) :
    (iblk0 (F := Ideal) V c 0 t : Vec Ideal S10000x128 .f32) y = (V c main_arg0 : S100000x128.Idx → EReal) i := by
  obtain ⟨e0, e1, e2, e3, e4, e5⟩ := idx_facts0 t
  unfold iblk0
  rw [View.read_apply]
  show V c main_arg0 _ = V c main_arg0 _
  congr 1
  funext a
  apply Fin.ext
  match a with
  | ⟨0, _⟩ => show win0_0.index t 0 * 10000 + 1 * (y 0).val = (i 0).val; omega
  | ⟨1, _⟩ => show win0_0.index t 1 * 128 + 1 * (y 1).val = (i 1).val; omega

/-- The block of w at every point is all of w. -/
theorem iblk0_1_apply (c : Dev nD) (t : Fin cfg0.N) (y : S128x64.Idx) (i : S128x64.Idx)
    (h0 : (i 0).val = (y 0).val) (h1 : (i 1).val = (y 1).val) :
    (iblk0 (F := Ideal) V c 1 t : Vec Ideal S128x64 .f32) y = (V c main_arg2 : S128x64.Idx → EReal) i := by
  obtain ⟨e0, e1, e2, e3, e4, e5⟩ := idx_facts0 t
  unfold iblk0
  rw [View.read_apply]
  show V c main_arg2 _ = V c main_arg2 _
  congr 1
  funext a
  apply Fin.ext
  match a with
  | ⟨0, _⟩ => show win0_1.index t 0 * 128 + 1 * (y 0).val = (i 0).val; omega
  | ⟨1, _⟩ => show win0_1.index t 1 * 64 + 1 * (y 1).val = (i 1).val; omega

/-! ## What a point writes back, and the array after the last point -/

/-- What point t writes back is block t of the whole product of the arrays as the region finds them: entry (p, q) of
    the body's result reads row p of the block of x, which is row 10000·t + p of x, the row of the result the entry is
    written to. -/
theorem flushed0_eq (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S10000x128) hz0, View.ld_unit_zero (S := S128x64) hz0]
  obtain ⟨e0, e1, e2, e3, e4, e5⟩ := idx_facts0 t
  funext j
  have hj0 : (j 0).val < 10000 := (j 0).isLt
  have hj1 : (j 1).val < 64 := (j 1).isLt
  refine point0 (iblk0 V c 0 t) (iblk0 V c 1 t) (V c main_arg0) (V c main_arg2)
    (((cfg0.win 2).blk t).view.emb j) ((cfg0.win 2).xinj (grid0.coords t) j) (fun k => ?_) (fun k => ?_)
  · refine iblk0_0_apply V c t _ _ ?_ ?_
    · show win0_2.index t 0 * 10000 + 1 * (j 0).val = 10000 * t.val + (j 0).val; omega
    · rfl
  · refine iblk0_1_apply V c t _ _ ?_ ?_
    · rfl
    · show win0_2.index t 1 * 64 + 1 * (j 1).val = (j 1).val; omega

/-- An index of the result is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v7).slice (win0_2.rect t)).set ↔ _
  rw [View.set_slice_whole, Rect.mem_set_unit]
  exact Iff.rfl

/-- Every index of the result is in some point's block: row r is in the block of the point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := idx_facts0 t
  refine ⟨t, flush0_2 t, ?_⟩
  rw [mem_blk0]
  intro a
  match a with
  | ⟨0, _⟩ => show win0_2.index t 0 * 10000 ≤ (i 0).val ∧ (i 0).val < win0_2.index t 0 * 10000 + 10000; omega
  | ⟨1, _⟩ => show win0_2.index t 1 * 64 ≤ (i 1).val ∧ (i 1).val < win0_2.index t 1 * 64 + 64; omega

/-- The result array after the last point is the whole product of the arrays as the region finds them. -/
theorem final0 (c : Dev nD) : (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

/-- Entry (r, q) of the result array after the last point: Σ k, x (r, k) · w (k, q), over the extended reals. -/
theorem array0 (c : Dev nD) (r : Fin 100000) (q : Fin 64) :
    Eq (α := EReal) ((Gen.dat0 (F := Ideal) V c).arrAt 2 cfg0.N (ValueIdx.ix2 r q))
      (∑ k : Fin 128, HMul.hMul (α := EReal) (β := EReal) (V c main_arg0 (ValueIdx.ix2 r k)) (V c main_arg2 (ValueIdx.ix2 k q))) :=
  congrFun (final0 V c) (ix2 r q)

end Cert.KernelIdeal.Dense

end
-- ==== Proof.Dense1.lean ====
/-
  The second dense product, entry by entry.

  The region multiplies a 100000 × 64 matrix x by a 64 × 32 matrix w, ten blocks of 10000 rows at a time. At grid
  point t the body holds rows 10000·t … 10000·t + 9999 of x and all of w, and leaves in the output's block their
  product into a zero accumulator; that block is then written back to the same rows of the result. The body recasts
  the block of x to its own shape, the identity, and over the extended reals narrowing an operand to the shorter
  float format is the identity too, so entry (p, q) of the block is Σ k, x (10000·t + p, k) · w (k, q). Entry (r, q)
  of the result therefore depends on row r of x and column q of w alone, and it is the same sum whichever block holds
  row r: every point writes its block of ONE whole-array function. The ten blocks tile the rows, so the result array
  ends as that function, the whole product.
-/
import proofs.«121707_j44925357916599_1_alg».proof.Proof.Gen.KernelIdeal.Frame
import proofs.«121707_j44925357916599_1_alg».proof.Proof.LibDotRead
import Idealize.ShloMosaic.Lib.Pipeline.Value
import Idealize.ShloMosaic.Lib.ValueIdx

-- membership in a rectangle of these extents recurses once per coordinate of the long axis
set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, as the constant function. -/
theorem hz1 : (![0, 0] : Fin 2 → Nat) = fun _ => 0 := funext fun a => by fin_cases a <;> rfl

/-! ## The block product at an entry -/

/-- The product's dimension record is a plain one: rows × contraction times contraction × columns, no batch axis. The
    left operand is read at (output row, contraction coordinate), the right one at (contraction coordinate, output column). -/
theorem plain1 : Cert.DotRead.Plain (m := 10000) (n := 64) (p := 32) dot_S10000x64_S64x32_S10000x32_1_0_0_1_n_n where
  rank := by decide
  size := by decide
  lhs0 := fun i q => by
    unfold DotDims.lhsIdx
    rw [dif_neg (show ¬(0 : Fin _) ∈ dot_S10000x64_S64x32_S10000x32_1_0_0_1_n_n.lhsBatch by decide),
      dif_pos (show (0 : Fin _) ∈ dot_S10000x64_S64x32_S10000x32_1_0_0_1_n_n.lhsNonContracting by decide)]
    rfl
  lhs1 := fun i q => dot_S10000x64_S64x32_S10000x32_1_0_0_1_n_n.lhsIdx_val_of_single rfl i q
  rhs0 := fun i q => dot_S10000x64_S64x32_S10000x32_1_0_0_1_n_n.rhsIdx_val_of_single rfl i q
  rhs1 := fun i q => by
    unfold DotDims.rhsIdx
    rw [dif_neg (show ¬(1 : Fin _) ∈ dot_S10000x64_S64x32_S10000x32_1_0_0_1_n_n.rhsBatch by decide),
      dif_pos (show (1 : Fin _) ∈ dot_S10000x64_S64x32_S10000x32_1_0_0_1_n_n.rhsNonContracting by decide)]
    rfl

/-- Entry (p, q) of what the body stores, from the two blocks it loaded: Σ k, x0 (p, k) · x1 (k, q). The left operand
    is first recast to its own shape, which is the identity; both operands are then narrowed to the shorter format, which
    over the extended reals changes nothing; and the accumulator is zero. -/
theorem pay1 (x0 : Vec Ideal S10000x64 .f32) (x1 : Vec Ideal S64x32 .f32) (p : Fin 10000) (q : Fin 32) :
    k1_pay1 x0 x1 (ix2 p q) = ∑ k : Fin 64, x0 (ix2 p k) * x1 (ix2 k q) := by
  unfold k1_pay1
  rw [shapeCast_self]
  exact Cert.DotRead.matmul_zero_apply dot_S10000x64_S64x32_S10000x32_1_0_0_1_n_n plain1 none _ _ p q

/-! ## The whole product -/

/-- The product of a 100000 × 64 matrix and a 64 × 32 matrix, entry by entry. -/
def G1 (x : S100000x64.Idx → EReal) (w : S64x32.Idx → EReal) : S100000x32.Idx → EReal :=
  fun i => ∑ k : Fin 64, x (ix2 (i 0) k) * w (ix2 k (i 1))

theorem G1_apply (x : S100000x64.Idx → EReal) (w : S64x32.Idx → EReal) (r : Fin 100000) (q : Fin 32) :
    G1 x w (ix2 r q) = ∑ k : Fin 64, x (ix2 r k) * w (ix2 k q) := rfl

/-- A block entry is an entry of the whole product as soon as the block's row is the matching row of x and the
    block's columns are the matching columns of w. -/
theorem point1 (x0 : Vec Ideal S10000x64 .f32) (x1 : Vec Ideal S64x32 .f32)
    (x : S100000x64.Idx → EReal) (w : S64x32.Idx → EReal) (i : S100000x32.Idx) (j : S10000x32.Idx)
    (h0 : ∀ k : Fin 64, x0 (ix2 (j 0) k) = x (ix2 (i 0) k))
    (h1 : ∀ k : Fin 64, x1 (ix2 k (j 1)) = w (ix2 k (i 1))) :
    k1_pay1 x0 x1 j = G1 x w i :=
  (congrArg (k1_pay1 x0 x1) (eq_ix2 j)).trans
    ((pay1 x0 x1 (j 0) (j 1)).trans (Finset.sum_congr rfl fun k _ => by rw [h0 k, h1 k]))

/-! ## Which rows a point holds -/

/-- The index maps over the ten points: the block of x moves with the output's block down the rows, the block of w
    stays at the origin, and the output's block at point t is block t of the rows. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

/-- The block of x at point t is rows 10000·t … 10000·t + 9999 of x: a block's coordinate sits in the array at the
    block index times the block's extent plus the coordinate inside the block. -/
theorem iblk1_0_apply (c : Dev nD) (t : Fin cfg1.N) (y : S10000x64.Idx) (i : S100000x64.Idx)
    (h0 : (i 0).val = 10000 * t.val + (y 0).val) (h1 : (i 1).val = (y 1).val) :
    (iblk1 (F := Ideal) V c 0 t : Vec Ideal S10000x64 .f32) y = (V c main_v49 : S100000x64.Idx → EReal) i := by
  obtain ⟨e0, e1, e2, e3, e4, e5⟩ := idx_facts1 t
  unfold iblk1
  rw [View.read_apply]
  show V c main_v49 _ = V c main_v49 _
  congr 1
  funext a
  apply Fin.ext
  match a with
  | ⟨0, _⟩ => show win1_0.index t 0 * 10000 + 1 * (y 0).val = (i 0).val; omega
  | ⟨1, _⟩ => show win1_0.index t 1 * 64 + 1 * (y 1).val = (i 1).val; omega

/-- The block of w at every point is all of w. -/
theorem iblk1_1_apply (c : Dev nD) (t : Fin cfg1.N) (y : S64x32.Idx) (i : S64x32.Idx)
    (h0 : (i 0).val = (y 0).val) (h1 : (i 1).val = (y 1).val) :
    (iblk1 (F := Ideal) V c 1 t : Vec Ideal S64x32 .f32) y = (V c main_arg4 : S64x32.Idx → EReal) i := by
  obtain ⟨e0, e1, e2, e3, e4, e5⟩ := idx_facts1 t
  unfold iblk1
  rw [View.read_apply]
  show V c main_arg4 _ = V c main_arg4 _
  congr 1
  funext a
  apply Fin.ext
  match a with
  | ⟨0, _⟩ => show win1_1.index t 0 * 64 + 1 * (y 0).val = (i 0).val; omega
  | ⟨1, _⟩ => show win1_1.index t 1 * 32 + 1 * (y 1).val = (i 1).val; omega

/-! ## What a point writes back, and the array after the last point -/

/-- What point t writes back is block t of the whole product of the arrays as the region finds them: entry (p, q) of
    the body's result reads row p of the block of x, which is row 10000·t + p of x, the row of the result the entry is
    written to. -/
theorem flushed1_eq (c : Dev nD) (t : Fin cfg1.N) :
    (dat1 (F := Ideal) V c).flushed 2 t
      = ((cfg1.win 2).blk t).view.read (Elt Ideal) (G1 (V c main_v49) (V c main_arg4)) := by
  show (cfg1.win 2).cut (grid1.coords t) ((dat1 (F := Ideal) V c).after 2 t) = _
  rw [after1_2]
  unfold out1_2
  rw [View.canon_unit_zero hz1]
  simp only [View.ld_unit_zero (S := S10000x64) hz1, View.ld_unit_zero (S := S64x32) hz1]
  obtain ⟨e0, e1, e2, e3, e4, e5⟩ := idx_facts1 t
  funext j
  have hj0 : (j 0).val < 10000 := (j 0).isLt
  have hj1 : (j 1).val < 32 := (j 1).isLt
  refine point1 (iblk1 V c 0 t) (iblk1 V c 1 t) (V c main_v49) (V c main_arg4)
    (((cfg1.win 2).blk t).view.emb j) ((cfg1.win 2).xinj (grid1.coords t) j) (fun k => ?_) (fun k => ?_)
  · refine iblk1_0_apply V c t _ _ ?_ ?_
    · show win1_2.index t 0 * 10000 + 1 * (j 0).val = 10000 * t.val + (j 0).val; omega
    · rfl
  · refine iblk1_1_apply V c t _ _ ?_ ?_
    · rfl
    · show win1_2.index t 1 * 32 + 1 * (j 1).val = (j 1).val; omega

/-- An index of the result is in point t's block iff each coordinate is in the block's range on its axis. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v50).slice (win1_2.rect t)).set ↔ _
  rw [View.set_slice_whole, Rect.mem_set_unit]
  exact Iff.rfl

/-- Every index of the result is in some point's block: row r is in the block of the point r / 10000. -/
theorem cover1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, by show _ < grid1.N; rw [N_1]; omega⟩, rfl⟩
  obtain ⟨e0, e1, e2, e3, e4, e5⟩ := idx_facts1 t
  refine ⟨t, flush1_2 t, ?_⟩
  rw [mem_blk1]
  intro a
  match a with
  | ⟨0, _⟩ => show win1_2.index t 0 * 10000 ≤ (i 0).val ∧ (i 0).val < win1_2.index t 0 * 10000 + 10000; omega
  | ⟨1, _⟩ => show win1_2.index t 1 * 32 ≤ (i 1).val ∧ (i 1).val < win1_2.index t 1 * 32 + 32; omega

/-- The result array after the last point is the whole product of the arrays as the region finds them. -/
theorem final1 (c : Dev nD) : (dat1 (F := Ideal) V c).arrAt 2 cfg1.N = G1 (V c main_v49) (V c main_arg4) :=
  (dat1 (F := Ideal) V c).arrAt_eq_of_cover 2 (G1 (V c main_v49) (V c main_arg4)) (fun t _ => flushed1_eq V c t) cover1

/-- Entry (r, q) of the result array after the last point: Σ k, x (r, k) · w (k, q), over the extended reals. -/
theorem array1 (c : Dev nD) (r : Fin 100000) (q : Fin 32) :
    Eq (α := EReal) ((Gen.dat1 (F := Ideal) V c).arrAt 2 cfg1.N (ValueIdx.ix2 r q))
      (∑ k : Fin 64, HMul.hMul (α := EReal) (β := EReal) (V c main_v49 (ValueIdx.ix2 r k)) (V c main_arg4 (ValueIdx.ix2 k q))) :=
  congrFun (final1 V c) (ix2 r q)

end Cert.KernelIdeal.Dense

end
-- ==== Proof.LibDotHostRead.lean ====
/-
  The host's general dot product read at an entry.

  For a plain two-dimensional product — rows × contraction times contraction × columns, one contracted axis, no batch
  axis — the host's general dot product at the entry (r, k) is the same finite sum Σ j, lhs (r, j) · rhs (j, k) over the
  contraction's coordinate j that a matrix unit's product into a zero accumulator computes, so the two forms meet term
  by term. The dimension record enters only through the four coordinate facts of a plain record.
-/
import Idealize.ShloMosaic.PureOps.Ideal
import Idealize.ShloMosaic.PureOps.Ideal.Laws
import Idealize.ShloMosaic.Lib.ValueIdx
import proofs.«121707_j44925357916599_1_alg».proof.Proof.LibDotRead

noncomputable section

namespace Cert.DotRead

open Idealize.ShloMosaic Idealize.ShloMosaic.ValueIdx

/-- Entry (r, k) of the host's general dot product of a plain record is Σ j, lhs (r, j) · rhs (j, k). -/
theorem dotGeneral_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    Host.dotGeneral (F := Ideal) d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.RefDots.lean ====
/-
  The reference's two dense products are plain.

  Both of the reference's general dot products contract the left operand's columns with the right operand's rows and
  have no batch axis: the left operand is read at (output row, contraction coordinate) and the right one at
  (contraction coordinate, output column). These are the four coordinate facts under which a product is read at an
  entry as the finite sum over the contraction.
-/
import proofs.«121707_j44925357916599_1_alg».proof.Proof.Gen.ReferenceIdeal
import proofs.«121707_j44925357916599_1_alg».proof.Proof.LibDotRead

noncomputable section

namespace Cert.Bridge

open Idealize.ShloMosaic

/-- The first product, [100000,128] × [128,64]. -/
theorem plain_first : Cert.DotRead.Plain Cert.ReferenceIdeal.dot_S100000x128_S128x64_S100000x64_1_0_0_1_n_n where
  rank := rfl
  size := rfl
  lhs0 := fun i q => by
    unfold DotDims.lhsIdx
    rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
    rfl
  lhs1 := fun i q => Cert.ReferenceIdeal.dot_S100000x128_S128x64_S100000x64_1_0_0_1_n_n.lhsIdx_val_of_single rfl i q
  rhs0 := fun i q => Cert.ReferenceIdeal.dot_S100000x128_S128x64_S100000x64_1_0_0_1_n_n.rhsIdx_val_of_single rfl i q
  rhs1 := fun i q => by
    unfold DotDims.rhsIdx
    rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
    rfl

/-- The second product, [100000,64] × [64,32]. -/
theorem plain_second : Cert.DotRead.Plain Cert.ReferenceIdeal.dot_S100000x64_S64x32_S100000x32_1_0_0_1_n_n where
  rank := rfl
  size := rfl
  lhs0 := fun i q => by
    unfold DotDims.lhsIdx
    rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
    rfl
  lhs1 := fun i q => Cert.ReferenceIdeal.dot_S100000x64_S64x32_S100000x32_1_0_0_1_n_n.lhsIdx_val_of_single rfl i q
  rhs0 := fun i q => Cert.ReferenceIdeal.dot_S100000x64_S64x32_S100000x32_1_0_0_1_n_n.rhsIdx_val_of_single rfl i q
  rhs1 := fun i q => by
    unfold DotDims.rhsIdx
    rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
    rfl

end Cert.Bridge

end
-- ==== Proof.BridgeR.lean ====
/-
  The two dense products, on both programs.

  The kernel program computes each dense product in a region tiled over blocks of 10000 rows; after the region the
  output array holds, at row r and column q, the sum over the contraction of left (r, j) · right (j, q) of the two
  operand arrays as the region found them. The reference computes the same product by one host general dot product,
  which at the same entry is the same sum. So from contents that agree on the two operands the product arrays are
  equal; and neither the region nor the host product writes any other buffer.
-/
import proofs.«121707_j44925357916599_1_alg».proof.Proof.Gen.KernelIdeal.Frame
import proofs.«121707_j44925357916599_1_alg».proof.Proof.RefRun
import proofs.«121707_j44925357916599_1_alg».proof.Proof.Dense0
import proofs.«121707_j44925357916599_1_alg».proof.Proof.Dense1
import proofs.«121707_j44925357916599_1_alg».proof.Proof.LibDotHostRead
import proofs.«121707_j44925357916599_1_alg».proof.Proof.RefDots
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

open Idealize.ShloMosaic.ValueIdx

variable (m : (ℓ : Loc nD τ sig) → Buf (Elt Ideal) ℓ) (ρ : Dev nD → PrngReg)

/-- The first product: the region's output array is the reference's general dot product of the same operands. -/
theorem first_product (c : Dev nD) (WR : Valuation Cert.ReferenceIdeal.τ Cert.ReferenceIdeal.sig (Elt Ideal))
    (h0 : W1 m ρ c (Proc.devRef .tc main_arg0) = WR (Proc.devRef .tc Cert.ReferenceIdeal.main_arg0))
    (h2 : W1 m ρ c (Proc.devRef .tc main_arg2) = WR (Proc.devRef .tc Cert.ReferenceIdeal.main_arg2)) :
    W2 m ρ c (Proc.devRef .tc main_v7) = StableHlo.after (((Cert.ReferenceIdeal.ValueP.ops (F := Ideal)).drop 7).take 1) WR (Proc.devRef .tc Cert.ReferenceIdeal.main_v7) := by
  simp only [Cert.ReferenceIdeal.ValueP.ops, List.drop_succ_cons, List.drop_zero, List.take_succ_cons, List.take_zero]
  after_results
  rw [← h0, ← h2]
  refine (W2_arr m ρ c 2).trans ?_
  funext i
  obtain ⟨r, q, rfl⟩ : ∃ (r : Fin 100000) (q : Fin 64), i = ix2 r q := ⟨i 0, i 1, eq_ix2 i⟩
  refine (Cert.KernelIdeal.Dense.array0 (V1 m ρ) c r q).trans ?_
  exact (Cert.DotRead.dotGeneral_apply Cert.ReferenceIdeal.dot_S100000x128_S128x64_S100000x64_1_0_0_1_n_n plain_first none _ _ r q).symm

/-- The reference's first product writes neither index vector nor the remaining arguments. -/
theorem first_product_keeps_reference (WR : Valuation Cert.ReferenceIdeal.τ Cert.ReferenceIdeal.sig (Elt Ideal)) :
    StableHlo.after (((Cert.ReferenceIdeal.ValueP.ops (F := Ideal)).drop 7).take 1) WR (Proc.devRef .tc Cert.ReferenceIdeal.main_v3) = WR (Proc.devRef .tc Cert.ReferenceIdeal.main_v3)
    ∧ StableHlo.after (((Cert.ReferenceIdeal.ValueP.ops (F := Ideal)).drop 7).take 1) WR (Proc.devRef .tc Cert.ReferenceIdeal.main_v6) = WR (Proc.devRef .tc Cert.ReferenceIdeal.main_v6)
    ∧ StableHlo.after (((Cert.ReferenceIdeal.ValueP.ops (F := Ideal)).drop 7).take 1) WR (Proc.devRef .tc Cert.ReferenceIdeal.main_arg3) = WR (Proc.devRef .tc Cert.ReferenceIdeal.main_arg3)
    ∧ StableHlo.after (((Cert.ReferenceIdeal.ValueP.ops (F := Ideal)).drop 7).take 1) WR (Proc.devRef .tc Cert.ReferenceIdeal.main_arg4) = WR (Proc.devRef .tc Cert.ReferenceIdeal.main_arg4)
    ∧ StableHlo.after (((Cert.ReferenceIdeal.ValueP.ops (F := Ideal)).drop 7).take 1) WR (Proc.devRef .tc Cert.ReferenceIdeal.main_arg5) = WR (Proc.devRef .tc Cert.ReferenceIdeal.main_arg5) := by
  refine ⟨?_, ?_, ?_, ?_, ?_⟩ <;> (simp only [Cert.ReferenceIdeal.ValueP.ops, List.drop_succ_cons, List.drop_zero, List.take_succ_cons, List.take_zero]; after_results_simp)

/-- The second product, likewise: its left operand is the rectified first layer. -/
theorem second_product (c : Dev nD) (WR : Valuation Cert.ReferenceIdeal.τ Cert.ReferenceIdeal.sig (Elt Ideal))
    (h49 : W6 m ρ c (Proc.devRef .tc main_v49) = WR (Proc.devRef .tc Cert.ReferenceIdeal.main_v49))
    (h4 : W6 m ρ c (Proc.devRef .tc main_arg4) = WR (Proc.devRef .tc Cert.ReferenceIdeal.main_arg4)) :
    W7 m ρ c (Proc.devRef .tc main_v50) = StableHlo.after (((Cert.ReferenceIdeal.ValueP.ops (F := Ideal)).drop 66).take 1) WR (Proc.devRef .tc Cert.ReferenceIdeal.main_v50) := by
  simp only [Cert.ReferenceIdeal.ValueP.ops, List.drop_succ_cons, List.drop_zero, List.take_succ_cons, List.take_zero]
  after_results
  rw [← h49, ← h4]
  refine (W7_arr m ρ c 2).trans ?_
  funext i
  obtain ⟨r, q, rfl⟩ : ∃ (r : Fin 100000) (q : Fin 32), i = ix2 r q := ⟨i 0, i 1, eq_ix2 i⟩
  refine (Cert.KernelIdeal.Dense.array1 (V6 m ρ) c r q).trans ?_
  exact (Cert.DotRead.dotGeneral_apply Cert.ReferenceIdeal.dot_S100000x64_S64x32_S100000x32_1_0_0_1_n_n plain_second none _ _ r q).symm

/-- The reference's second product writes neither index vector nor the second bias. -/
theorem second_product_keeps_reference (WR : Valuation Cert.ReferenceIdeal.τ Cert.ReferenceIdeal.sig (Elt Ideal)) :
    StableHlo.after (((Cert.ReferenceIdeal.ValueP.ops (F := Ideal)).drop 66).take 1) WR (Proc.devRef .tc Cert.ReferenceIdeal.main_v3) = WR (Proc.devRef .tc Cert.ReferenceIdeal.main_v3)
    ∧ StableHlo.after (((Cert.ReferenceIdeal.ValueP.ops (F := Ideal)).drop 66).take 1) WR (Proc.devRef .tc Cert.ReferenceIdeal.main_v6) = WR (Proc.devRef .tc Cert.ReferenceIdeal.main_v6)
    ∧ StableHlo.after (((Cert.ReferenceIdeal.ValueP.ops (F := Ideal)).drop 66).take 1) WR (Proc.devRef .tc Cert.ReferenceIdeal.main_arg5) = WR (Proc.devRef .tc Cert.ReferenceIdeal.main_arg5) := by
  refine ⟨?_, ?_, ?_⟩ <;> (simp only [Cert.ReferenceIdeal.ValueP.ops, List.drop_succ_cons, List.drop_zero, List.take_succ_cons, List.take_zero]; after_results_simp)

end Cert.Bridge

end
-- ==== Proof.Bridge.lean ====
/-
  The two programs' results are equal.

  Both programs are the same sequence of host operations around two dense products; the kernel program computes each
  product in a tiled region, the reference by one host general dot product. Following the buffers' contents through
  the five stages — the edge-index vectors, the first product, the normalised and rectified first layer, the second
  product, the normalised second layer with its bias — the two programs agree, at every stage boundary, on every buffer a
  later stage reads: on the arguments because the memories agree and nothing writes them, on a stage's result because
  it is the same function of buffers agreed on before. At the end they agree on the result.
-/
import proofs.«121707_j44925357916599_1_alg».proof.Proof.Gen.KernelIdeal.Frame
import proofs.«121707_j44925357916599_1_alg».proof.Proof.RefRun
import proofs.«121707_j44925357916599_1_alg».proof.Proof.BridgeA
import proofs.«121707_j44925357916599_1_alg».proof.Proof.BridgeB
import proofs.«121707_j44925357916599_1_alg».proof.Proof.BridgeC
import proofs.«121707_j44925357916599_1_alg».proof.Proof.BridgeR
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-- The contents after two lists of operations in a row are the contents after the second from those after the first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A list of operations cut at positions 7, 8, 66 and 67: the contents after the whole list are the contents after
    the five pieces in a row. -/
theorem after_cut {τ : Topo} {sig : RefSig} {Val : EltTy → Type} (l : List (HloOp τ sig Val)) (V : Valuation τ sig Val) :
    StableHlo.after l V
      = StableHlo.after (l.drop 67) (StableHlo.after ((l.drop 66).take 1) (StableHlo.after ((l.drop 8).take 58)
          (StableHlo.after ((l.drop 7).take 1) (StableHlo.after (l.take 7) V)))) := by
  rw [← after_append, ← after_append, ← after_append, ← after_append]
  congr 1
  have e1 : l.drop 67 = (l.drop 66).drop 1 := by rw [List.drop_drop]
  have e2 : l.drop 66 = (l.drop 8).drop 58 := by rw [List.drop_drop]
  have e3 : l.drop 8 = (l.drop 7).drop 1 := by rw [List.drop_drop]
  rw [e1, List.take_append_drop, e2, List.take_append_drop, e3, List.take_append_drop, List.take_append_drop]

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The reference's buffer contents at launch and after each of its five stages. -/
abbrev U0 (c : Dev Cert.ReferenceIdeal.nD) : Valuation Cert.ReferenceIdeal.τ Cert.ReferenceIdeal.sig (Elt Ideal) := launchContents m' c
abbrev U1 (c : Dev Cert.ReferenceIdeal.nD) : Valuation Cert.ReferenceIdeal.τ Cert.ReferenceIdeal.sig (Elt Ideal) := StableHlo.after ((Cert.ReferenceIdeal.ValueP.ops (F := Ideal)).take 7) (U0 m' c)
abbrev U2 (c : Dev Cert.ReferenceIdeal.nD) : Valuation Cert.ReferenceIdeal.τ Cert.ReferenceIdeal.sig (Elt Ideal) := StableHlo.after (((Cert.ReferenceIdeal.ValueP.ops (F := Ideal)).drop 7).take 1) (U1 m' c)
abbrev U6 (c : Dev Cert.ReferenceIdeal.nD) : Valuation Cert.ReferenceIdeal.τ Cert.ReferenceIdeal.sig (Elt Ideal) := StableHlo.after (((Cert.ReferenceIdeal.ValueP.ops (F := Ideal)).drop 8).take 58) (U2 m' c)
abbrev U7 (c : Dev Cert.ReferenceIdeal.nD) : Valuation Cert.ReferenceIdeal.τ Cert.ReferenceIdeal.sig (Elt Ideal) := StableHlo.after (((Cert.ReferenceIdeal.ValueP.ops (F := Ideal)).drop 66).take 1) (U6 m' c)

set_option maxHeartbeats 1000000 in
/-- From memories agreeing on the six arguments, the kernel program's last boundary contents and the reference's
    fold over its launch contents agree at the result buffer. -/
theorem result_eq (c : Dev nD)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5)) :
    W10 m ρ c (Proc.devRef .tc main_v91)
      = StableHlo.after (Cert.ReferenceIdeal.ValueP.ops (F := Ideal)) (launchContents m' c) (Proc.devRef .tc Cert.ReferenceIdeal.main_v91) := by
  -- at launch: the memories agree on the arguments
  have b0 : W0 m ρ c (Proc.devRef .tc main_arg0) = U0 m' c (Proc.devRef .tc Cert.ReferenceIdeal.main_arg0) := a0.symm
  have b1 : W0 m ρ c (Proc.devRef .tc main_arg1) = U0 m' c (Proc.devRef .tc Cert.ReferenceIdeal.main_arg1) := a1.symm
  have b2 : W0 m ρ c (Proc.devRef .tc main_arg2) = U0 m' c (Proc.devRef .tc Cert.ReferenceIdeal.main_arg2) := a2.symm
  have b3 : W0 m ρ c (Proc.devRef .tc main_arg3) = U0 m' c (Proc.devRef .tc Cert.ReferenceIdeal.main_arg3) := a3.symm
  have b4 : W0 m ρ c (Proc.devRef .tc main_arg4) = U0 m' c (Proc.devRef .tc Cert.ReferenceIdeal.main_arg4) := a4.symm
  have b5 : W0 m ρ c (Proc.devRef .tc main_arg5) = U0 m' c (Proc.devRef .tc Cert.ReferenceIdeal.main_arg5) := a5.symm
  -- after the index vectors are built
  obtain ⟨k10, k12, k13, k14, k15⟩ := first_keeps_kernel (W0 m ρ c)
  obtain ⟨r10, r12, r13, r14, r15⟩ := first_keeps_reference (U0 m' c)
  have s1 : W1 m ρ c (Proc.devRef .tc main_v3) = U1 m' c (Proc.devRef .tc Cert.ReferenceIdeal.main_v3) := first_sources (W0 m ρ c) (U0 m' c) b1
  have t1 : W1 m ρ c (Proc.devRef .tc main_v6) = U1 m' c (Proc.devRef .tc Cert.ReferenceIdeal.main_v6) := first_destinations (W0 m ρ c) (U0 m' c) b1
  have c10 : W1 m ρ c (Proc.devRef .tc main_arg0) = U1 m' c (Proc.devRef .tc Cert.ReferenceIdeal.main_arg0) := k10.trans (b0.trans r10.symm)
  have c12 : W1 m ρ c (Proc.devRef .tc main_arg2) = U1 m' c (Proc.devRef .tc Cert.ReferenceIdeal.main_arg2) := k12.trans (b2.trans r12.symm)
  have c13 : W1 m ρ c (Proc.devRef .tc main_arg3) = U1 m' c (Proc.devRef .tc Cert.ReferenceIdeal.main_arg3) := k13.trans (b3.trans r13.symm)
  have c14 : W1 m ρ c (Proc.devRef .tc main_arg4) = U1 m' c (Proc.devRef .tc Cert.ReferenceIdeal.main_arg4) := k14.trans (b4.trans r14.symm)
  have c15 : W1 m ρ c (Proc.devRef .tc main_arg5) = U1 m' c (Proc.devRef .tc Cert.ReferenceIdeal.main_arg5) := k15.trans (b5.trans r15.symm)
  -- after the first product
  obtain ⟨r2s, r2t, r23, r24, r25⟩ := first_product_keeps_reference (U1 m' c)
  have p2 : W2 m ρ c (Proc.devRef .tc main_v7) = U2 m' c (Proc.devRef .tc Cert.ReferenceIdeal.main_v7) := first_product m ρ c (U1 m' c) c10 c12
  have s2 : W2 m ρ c (Proc.devRef .tc main_v3) = U2 m' c (Proc.devRef .tc Cert.ReferenceIdeal.main_v3) := (W2_of_ne m ρ c main_v3 (by decide)).trans (s1.trans r2s.symm)
  have t2 : W2 m ρ c (Proc.devRef .tc main_v6) = U2 m' c (Proc.devRef .tc Cert.ReferenceIdeal.main_v6) := (W2_of_ne m ρ c main_v6 (by decide)).trans (t1.trans r2t.symm)
  have c23 : W2 m ρ c (Proc.devRef .tc main_arg3) = U2 m' c (Proc.devRef .tc Cert.ReferenceIdeal.main_arg3) := (W2_of_ne m ρ c main_arg3 (by decide)).trans (c13.trans r23.symm)
  have c24 : W2 m ρ c (Proc.devRef .tc main_arg4) = U2 m' c (Proc.devRef .tc Cert.ReferenceIdeal.main_arg4) := (W2_of_ne m ρ c main_arg4 (by decide)).trans (c14.trans r24.symm)
  have c25 : W2 m ρ c (Proc.devRef .tc main_arg5) = U2 m' c (Proc.devRef .tc Cert.ReferenceIdeal.main_arg5) := (W2_of_ne m ρ c main_arg5 (by decide)).trans (c15.trans r25.symm)
  -- after the first layer is normalised and rectified
  obtain ⟨k6s, k6t, k64, k65⟩ := middle_keeps_kernel (W2 m ρ c)
  obtain ⟨r6s, r6t, r64, r65⟩ := middle_keeps_reference (U2 m' c)
  have h6 : W6 m ρ c (Proc.devRef .tc main_v49) = U6 m' c (Proc.devRef .tc Cert.ReferenceIdeal.main_v49) := middle_result (W2 m ρ c) (U2 m' c) p2 s2 t2 c23
  have s6 : W6 m ρ c (Proc.devRef .tc main_v3) = U6 m' c (Proc.devRef .tc Cert.ReferenceIdeal.main_v3) := k6s.trans (s2.trans r6s.symm)
  have t6 : W6 m ρ c (Proc.devRef .tc main_v6) = U6 m' c (Proc.devRef .tc Cert.ReferenceIdeal.main_v6) := k6t.trans (t2.trans r6t.symm)
  have c64 : W6 m ρ c (Proc.devRef .tc main_arg4) = U6 m' c (Proc.devRef .tc Cert.ReferenceIdeal.main_arg4) := k64.trans (c24.trans r64.symm)
  have c65 : W6 m ρ c (Proc.devRef .tc main_arg5) = U6 m' c (Proc.devRef .tc Cert.ReferenceIdeal.main_arg5) := k65.trans (c25.trans r65.symm)
  -- after the second product
  obtain ⟨r7s, r7t, r75⟩ := second_product_keeps_reference (U6 m' c)
  have p7 : W7 m ρ c (Proc.devRef .tc main_v50) = U7 m' c (Proc.devRef .tc Cert.ReferenceIdeal.main_v50) := second_product m ρ c (U6 m' c) h6 c64
  have s7 : W7 m ρ c (Proc.devRef .tc main_v3) = U7 m' c (Proc.devRef .tc Cert.ReferenceIdeal.main_v3) := (W7_of_ne m ρ c main_v3 (by decide)).trans (s6.trans r7s.symm)
  have t7 : W7 m ρ c (Proc.devRef .tc main_v6) = U7 m' c (Proc.devRef .tc Cert.ReferenceIdeal.main_v6) := (W7_of_ne m ρ c main_v6 (by decide)).trans (t6.trans r7t.symm)
  have c75 : W7 m ρ c (Proc.devRef .tc main_arg5) = U7 m' c (Proc.devRef .tc Cert.ReferenceIdeal.main_arg5) := (W7_of_ne m ρ c main_arg5 (by decide)).trans (c65.trans r75.symm)
  -- the last stretch
  rw [after_cut]
  exact tail_result (W7 m ρ c) (U7 m' c) p7 s7 t7 c75

end Cert.Bridge

end
-- ==== Proof.lean ====
/- The proof of `Cert.Claim` (proofs.«121707_j44925357916599_1_alg».proof.Defs): a two-layer graph convolution whose two dense products
   x · W are computed by row-tiled kernel regions, against the same network with the products computed on the host.

   Both programs apply the same host operations around the products — the edge list with self-loops, the symmetric
   normalisation by the reciprocal square root of the in-degree, the gather of the product's rows along the edges, their
   scatter-add into the destination rows, the bias, and a rectifier between the layers. At the ideal instance a
   change of float format is the identity and a matrix unit's product into a zero accumulator is the exact finite sum,
   so a region's output array, assembled from its ten blocks of 10000 rows, is the host's general dot product of the
   same operands (Proof/Dense0.lean, Proof/Dense1.lean, Proof/BridgeR.lean). The three stretches of host operations
   are the same functions of the buffers they read (Proof/BridgeA.lean, BridgeB.lean, BridgeC.lean), and following the
   buffers through the five stages gives equal results from memories that agree on the arguments (Proof/Bridge.lean).
   No law of the extended reals beyond the two sums being the same sum is used, so the precondition is not opened.

   The frames: the two kernel programs' are the generated frame certificates; the reference's is its run with the
   result dropped (Proof/RefRun.lean). The idealization rewrote no operation, so nothing is owed for it. -/
import proofs.«121707_j44925357916599_1_alg».proof.Defs
import proofs.«121707_j44925357916599_1_alg».proof.Proof.Gen.Kernel
import proofs.«121707_j44925357916599_1_alg».proof.Proof.Gen.Kernel.Skeleton
import proofs.«121707_j44925357916599_1_alg».proof.Proof.Gen.Kernel.Launch
import proofs.«121707_j44925357916599_1_alg».proof.Proof.Gen.Kernel.Points
import proofs.«121707_j44925357916599_1_alg».proof.Proof.Gen.Kernel.Frame
import proofs.«121707_j44925357916599_1_alg».proof.Proof.Gen.KernelIdeal
import proofs.«121707_j44925357916599_1_alg».proof.Proof.Gen.KernelIdeal.Skeleton
import proofs.«121707_j44925357916599_1_alg».proof.Proof.Gen.KernelIdeal.Launch
import proofs.«121707_j44925357916599_1_alg».proof.Proof.Gen.KernelIdeal.Points
import proofs.«121707_j44925357916599_1_alg».proof.Proof.Gen.KernelIdeal.Frame
import proofs.«121707_j44925357916599_1_alg».proof.Proof.Gen.ReferenceIdeal
import proofs.«121707_j44925357916599_1_alg».proof.Proof.Gen.Pre_finite_inputs
import proofs.«121707_j44925357916599_1_alg».proof.Proof.KernelRun
import proofs.«121707_j44925357916599_1_alg».proof.Proof.RefRun
import proofs.«121707_j44925357916599_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs run and end with the same result: the kernel
    program's last boundary contents at the result buffer, which is the reference's fold of its operations there. -/
theorem algebraic : Cert.algebraic_KernelIdeal_ReferenceIdeal := by
  intro m ρ m' ρ' _ hagree
  refine ⟨fun c => Cert.KernelIdeal.Gen.W10 m ρ c (Proc.devRef .tc Cert.KernelIdeal.main_v91),
    Cert.KernelIdeal.Named.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact (Cert.Bridge.result_eq m ρ m' c a0 a1 a2 a3 a4 a5).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
